-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x3 : Shape := ⟨2, ![8000000, 3]⟩
abbrev S3x1 : Shape := ⟨2, ![3, 1]⟩
abbrev S_ : Shape := ⟨0, ![]⟩

class Facts : Prop where
  bcast_S_S8000000x3 : S_.BroadcastsInDim S8000000x3 (![] : Fin 0 → Fin S8000000x3.rank)
  reducesTo_S8000000x3_S_d0_1 : S8000000x3.ReducesTo [0, 1] S_
  h_S_ : 0 < S_.numel
  bcast_S_S3x1 : S_.BroadcastsInDim S3x1 (![] : Fin 0 → Fin S3x1.rank)
  reducesTo_S3x1_S_d0_1 : S3x1.ReducesTo [0, 1] S_

variable [Facts]

def fn {F : FTy → Type} [FloatOps F] (main_arg0 : FVec F S8000000x3 .f32) (main_arg1 : FVec F S3x1 .f32) : IVec S_ 1 :=
  let main_v0 : FVec F S8000000x3 .f32 := Host.absf main_arg0
  let main_cst : FVec F S_ .f32 := constant S_ .f32 0x7F800000#32
  let main_v1 : FVec F S8000000x3 .f32 := broadcastInDim S8000000x3 ![] bcast_S_S8000000x3 main_cst
  let main_v2 : IVec S8000000x3 1 := cmpf .olt main_v0 main_v1
  let main_c : IVec S_ 1 := constantI S_ 1 1#1
  let main_v3 : IVec S_ 1 := (fun x v => Host.reduce IntOp.andi x v reducesTo_S8000000x3_S_d0_1 h_S_) main_v2 main_c
  let main_v4 : FVec F S3x1 .f32 := Host.absf main_arg1
  let main_cst_0 : FVec F S_ .f32 := constant S_ .f32 0x7F800000#32
  let main_v5 : FVec F S3x1 .f32 := broadcastInDim S3x1 ![] bcast_S_S3x1 main_cst_0
  let main_v6 : IVec S3x1 1 := cmpf .olt main_v4 main_v5
  let main_c_1 : IVec S_ 1 := constantI S_ 1 1#1
  let main_v7 : IVec S_ 1 := (fun x v => Host.reduce IntOp.andi x v reducesTo_S3x1_S_d0_1 h_S_) main_v6 main_c_1
  let main_v8 : IVec S_ 1 := andi main_v3 main_v7
  main_v8
-- ==== Kernel.lean ====
abbrev S8000000x3 : Shape := ⟨2, ![8000000, 3]⟩
abbrev S3x1 : Shape := ⟨2, ![3, 1]⟩
abbrev S1x1 : Shape := ⟨2, ![1, 1]⟩
abbrev S_ : Shape := ⟨0, ![]⟩
abbrev S1 : Shape := ⟨1, ![1]⟩
abbrev S3 : Shape := ⟨1, ![3]⟩
abbrev S1x3 : Shape := ⟨2, ![1, 3]⟩
abbrev S3x3 : Shape := ⟨2, ![3, 3]⟩
abbrev S128x128 : Shape := ⟨2, ![128, 128]⟩
abbrev S128x1x128x1 : Shape := ⟨4, ![128, 1, 128, 1]⟩
abbrev S1x3x1x3 : Shape := ⟨4, ![1, 3, 1, 3]⟩
abbrev S128x3x128x3 : Shape := ⟨4, ![128, 3, 128, 3]⟩
abbrev S384x384 : Shape := ⟨2, ![384, 384]⟩
abbrev S62500x384 : Shape := ⟨2, ![62500, 384]⟩
abbrev S4000x384 : Shape := ⟨2, ![4000, 384]⟩

abbrev nBuf : Space → Nat
  | .hbm => 69
  | .vmem => 5
  | .smem => 0
  | _ => 0

abbrev bufTy : (tb : Table) → Fin (tcTables nBuf tb) → BufTy
  | .hbm, ⟨0, _⟩ => ⟨S8000000x3, .f32⟩
  | .hbm, ⟨1, _⟩ => ⟨S3x1, .f32⟩
  | .hbm, ⟨2, _⟩ => ⟨S1x1, .f32⟩
  | .hbm, ⟨3, _⟩ => ⟨S_, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1, .f32⟩
  | .hbm, ⟨26, _⟩ => ⟨S3, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1, .f32⟩
  | .hbm, ⟨39, _⟩ => ⟨S3, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S1, .f32⟩
  | .hbm, ⟨46, _⟩ => ⟨S3, .f32⟩
  | .hbm, ⟨47, _⟩ => ⟨S1x3, .f32⟩
  | .hbm, ⟨48, _⟩ => ⟨S1x3, .f32⟩
  | .hbm, ⟨49, _⟩ => ⟨S1x3, .f32⟩
  | .hbm, ⟨50, _⟩ => ⟨S3x3, .f32⟩
  | .hbm, ⟨51, _⟩ => ⟨S3x3, .f32⟩
  | .hbm, ⟨52, _⟩ => ⟨S128x128, .i32⟩
  | .hbm, ⟨53, _⟩ => ⟨S128x128, .i32⟩
  | .hbm, ⟨54, _⟩ => ⟨S_, .i32⟩
  | .hbm, ⟨55, _⟩ => ⟨S128x128, .i32⟩
  | .hbm, ⟨56, _⟩ => ⟨S128x128, .i32⟩
  | .hbm, ⟨57, _⟩ => ⟨S128x128, .i1⟩
  | .hbm, ⟨58, _⟩ => ⟨S128x128, .f32⟩
  | .hbm, ⟨59, _⟩ => ⟨S128x1x128x1, .f32⟩
  | .hbm, ⟨60, _⟩ => ⟨S1x3x1x3, .f32⟩
  | .hbm, ⟨61, _⟩ => ⟨S128x3x128x3, .f32⟩
  | .hbm, ⟨62, _⟩ => ⟨S128x3x128x3, .f32⟩
  | .hbm, ⟨63, _⟩ => ⟨S128x3x128x3, .f32⟩
  | .hbm, ⟨64, _⟩ => ⟨S384x384, .f32⟩
  | .hbm, ⟨65, _⟩ => ⟨S384x384, .bf16⟩
  | .hbm, ⟨66, _⟩ => ⟨S62500x384, .f32⟩
  | .hbm, ⟨67, _⟩ => ⟨S62500x384, .f32⟩
  | .hbm, ⟨68, _⟩ => ⟨S8000000x3, .f32⟩
  | .local _ .vmem, ⟨0, _⟩ => ⟨S4000x384, .f32⟩
  | .local _ .vmem, ⟨1, _⟩ => ⟨S4000x384, .f32⟩
  | .local _ .vmem, ⟨2, _⟩ => ⟨S384x384, .bf16⟩
  | .local _ .vmem, ⟨3, _⟩ => ⟨S4000x384, .f32⟩
  | .local _ .vmem, ⟨4, _⟩ => ⟨S4000x384, .f32⟩
  | _, _ => ⟨S8000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_c : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S3x1_S1x1_0_0 : S3x1.Slices ![0, 0] S1x1
  shapeCasts_S1x1_S_ : S1x1.ShapeCasts S_
  slices_S3x1_S1x1_1_0 : S3x1.Slices ![1, 0] S1x1
  slices_S3x1_S1x1_2_0 : S3x1.Slices ![2, 0] S1x1
  bcast_S_S1 : S_.BroadcastsInDim S1 (![] : Fin 0 → Fin S1.rank)
  concatenates_S1_S1_S1_S3_d0 : Shape.Concatenates [S1, S1, S1] S3 0
  bcast_S3_S1x3_1 : S3.BroadcastsInDim S1x3 (![1] : Fin 1 → Fin S1x3.rank)
  concatenates_S1x3_S1x3_S1x3_S3x3_d0 : Shape.Concatenates [S1x3, S1x3, S1x3] S3x3 0
  transposes_S3x3_S3x3_1_0 : S3x3.Transposes [1, 0] S3x3
  bcast_S_S128x128 : S_.BroadcastsInDim S128x128 (![] : Fin 0 → Fin S128x128.rank)
  bcast_S128x128_S128x1x128x1_0_2 : S128x128.BroadcastsInDim S128x1x128x1 (![0, 2] : Fin 2 → Fin S128x1x128x1.rank)
  bcast_S3x3_S1x3x1x3_1_3 : S3x3.BroadcastsInDim S1x3x1x3 (![1, 3] : Fin 2 → Fin S1x3x1x3.rank)
  bcast_S128x1x128x1_S128x3x128x3_0_1_2_3 : S128x1x128x1.BroadcastsInDim S128x3x128x3 (![0, 1, 2, 3] : Fin 4 → Fin S128x3x128x3.rank)
  bcast_S1x3x1x3_S128x3x128x3_0_1_2_3 : S1x3x1x3.BroadcastsInDim S128x3x128x3 (![0, 1, 2, 3] : Fin 4 → Fin S128x3x128x3.rank)
  shapeCasts_S128x3x128x3_S384x384 : S128x3x128x3.ShapeCasts S384x384
  bitsLt_bf16_f32 : FTy.bits .bf16 < FTy.bits .f32
  shapeCasts_S8000000x3_S62500x384 : S8000000x3.ShapeCasts S62500x384
  inb_S4000x384_S4000x384_0_0 : ∀ a, (![0, 0] : Fin 2 → Nat) a + S4000x384.size a ≤ S4000x384.size a
  h_S4000x384 : 0 < S4000x384.numel
  shapeCasts_S4000x384_S4000x384 : S4000x384.ShapeCasts S4000x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  shapeCasts_S62500x384_S8000000x3 : S62500x384.ShapeCasts S8000000x3
  dot_S4000x384_S384x384_S4000x384_1_0_0_1_n_n_wf : DotDims.WF S4000x384 S384x384 S4000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4000x384.size a < S62500x384.size a
  hwx0_0 : ∀ i : grid0.Coords, EltTy.bits .f32 = 32 ∨ (Rect.unit (s := S62500x384) (fun a => cc0_transform_0 i a * S4000x384.size a) (fun a => (Pipeline.Clip.of (cc0_transform_0 i a) (S4000x384.size a) (S62500x384.size a)).extent (S4000x384.size a)) fun a => Pipeline.Clip.inb (Pipeline.Clip.ok_of (hstart0_0 i a))).WholeWords (EltTy.packing .f32)
  hwxs0_0 : ∀ i : grid0.Coords, EltTy.bits .f32 = 32 ∨ (Rect.unit (s := S4000x384) (fun _ => 0) (fun a => (Pipeline.Clip.of (cc0_transform_0 i a) (S4000x384.size a) (S62500x384.size a)).extent (S4000x384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .bf16 = 32 ∨ (Rect.block (s := S384x384) S384x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4000x384.size a < S62500x384.size a
  hwx0_2 : ∀ i : grid0.Coords, EltTy.bits .f32 = 32 ∨ (Rect.unit (s := S62500x384) (fun a => cc0_transform_2 i a * S4000x384.size a) (fun a => (Pipeline.Clip.of (cc0_transform_2 i a) (S4000x384.size a) (S62500x384.size a)).extent (S4000x384.size a)) fun a => Pipeline.Clip.inb (Pipeline.Clip.ok_of (hstart0_2 i a))).WholeWords (EltTy.packing .f32)
  hwxs0_2 : ∀ i : grid0.Coords, EltTy.bits .f32 = 32 ∨ (Rect.unit (s := S4000x384) (fun _ => 0) (fun a => (Pipeline.Clip.of (cc0_transform_2 i a) (S4000x384.size a) (S62500x384.size a)).extent (S4000x384.size a)) fun a => (Nat.zero_add _).trans_le (Pipeline.Clip.extent_le (Pipeline.Clip.ok_of (hstart0_2 i a)))).WholeWords (EltTy.packing .f32)

variable [Facts₀]

def dot_S4000x384_S384x384_S4000x384_1_0_0_1_n_n : DotDims S4000x384 S384x384 S4000x384 where
  lhsContracting := [1]
  rhsContracting := [0]
  lhsNonContracting := [0]
  rhsNonContracting := [1]
  lhsBatch := []
  rhsBatch := []
  wf := dot_S4000x384_S384x384_S4000x384_1_0_0_1_n_n_wf

abbrev win0_0 : Pipeline.Window sig grid0 :=
  Pipeline.Window.ofSpecClip (Memref.whole main_v58) S4000x384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v57) S384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v59) S4000x384.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8000000x3 : Shape := ⟨2, ![8000000, 3]⟩
abbrev S3x1 : Shape := ⟨2, ![3, 1]⟩
abbrev S1x1 : Shape := ⟨2, ![1, 1]⟩
abbrev S_ : Shape := ⟨0, ![]⟩
abbrev S1 : Shape := ⟨1, ![1]⟩
abbrev S3 : Shape := ⟨1, ![3]⟩
abbrev S1x3 : Shape := ⟨2, ![1, 3]⟩
abbrev S3x3 : Shape := ⟨2, ![3, 3]⟩

abbrev nBuf : Space → Nat
  | .hbm => 53
  | .vmem => 0
  | .smem => 0
  | _ => 0

abbrev bufTy : (tb : Table) → Fin (tcTables nBuf tb) → BufTy
  | .hbm, ⟨0, _⟩ => ⟨S8000000x3, .f32⟩
  | .hbm, ⟨1, _⟩ => ⟨S3x1, .f32⟩
  | .hbm, ⟨2, _⟩ => ⟨S1x1, .f32⟩
  | .hbm, ⟨3, _⟩ => ⟨S_, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1, .f32⟩
  | .hbm, ⟨26, _⟩ => ⟨S3, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1, .f32⟩
  | .hbm, ⟨39, _⟩ => ⟨S3, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S1, .f32⟩
  | .hbm, ⟨46, _⟩ => ⟨S3, .f32⟩
  | .hbm, ⟨47, _⟩ => ⟨S1x3, .f32⟩
  | .hbm, ⟨48, _⟩ => ⟨S1x3, .f32⟩
  | .hbm, ⟨49, _⟩ => ⟨S1x3, .f32⟩
  | .hbm, ⟨50, _⟩ => ⟨S3x3, .f32⟩
  | .hbm, ⟨51, _⟩ => ⟨S3x3, .f32⟩
  | .hbm, ⟨52, _⟩ => ⟨S8000000x3, .f32⟩
  | _, _ => ⟨S8000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩

abbrev nD : Nat := 1
abbrev τ : Topo := Topo.v7x

variable {F : FTy → Type} [FloatOps F]

class Facts₀ : Prop where
  slices_S3x1_S1x1_0_0 : S3x1.Slices ![0, 0] S1x1
  shapeCasts_S1x1_S_ : S1x1.ShapeCasts S_
  slices_S3x1_S1x1_1_0 : S3x1.Slices ![1, 0] S1x1
  slices_S3x1_S1x1_2_0 : S3x1.Slices ![2, 0] S1x1
  bcast_S_S1 : S_.BroadcastsInDim S1 (![] : Fin 0 → Fin S1.rank)
  concatenates_S1_S1_S1_S3_d0 : Shape.Concatenates [S1, S1, S1] S3 0
  bcast_S3_S1x3_1 : S3.BroadcastsInDim S1x3 (![1] : Fin 1 → Fin S1x3.rank)
  concatenates_S1x3_S1x3_S1x3_S3x3_d0 : Shape.Concatenates [S1x3, S1x3, S1x3] S3x3 0
  transposes_S3x3_S3x3_1_0 : S3x3.Transposes [1, 0] S3x3
  dot_S8000000x3_S3x3_S8000000x3_1_0_0_1_n_n_wf : DotDims.WF S8000000x3 S3x3 S8000000x3 [1] [0] [0] [1] [] []

variable [Facts₀]

def dot_S8000000x3_S3x3_S8000000x3_1_0_0_1_n_n : DotDims S8000000x3 S3x3 S8000000x3 where
  lhsContracting := [1]
  rhsContracting := [0]
  lhsNonContracting := [0]
  rhsNonContracting := [1]
  lhsBatch := []
  rhsBatch := []
  wf := dot_S8000000x3_S3x3_S8000000x3_1_0_0_1_n_n_wf

class Facts : Prop extends Facts₀ where

variable [Facts]
-- ==== Proof.AroundBits.lean ====
/-
  The kernel's program, as printed, around its one matrix product: what the buffers hold when the product starts, that the program is host operations, the product, and one re-laying of the result, that the operations around the product leave the two argument arrays alone, and what one grid point of the product does to its three buffers. Stated for any float values.
-/
import proofs.«141301_j84353157693800_2_alg».proof.Proof.Gen.Kernel.Launch
import proofs.«141301_j84353157693800_2_alg».proof.Proof.Gen.Kernel.Skeleton
import proofs.«141301_j84353157693800_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one product -/

/-- What each buffer of the core holds when the product starts: the launch contents carried through the
    three stretches of host operations before it (the rotation's entries from the three angles, the
    block-diagonal matrix built from them, the points re-laid 128 to a row). -/
abbrev V0 (c : Dev nD) : Valuation τ sig (Elt F) :=
  StableHlo.after (List.flatten [hostOps0, hostOps0_1, hostOps0_2]) (fun b => m (c, b))
/-- The same, read at a buffer of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the product, the product, and one re-laying of its result. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (show _ ∧ _ ∧ _ from ⟨hostOps0_sub, hostOps0_1_sub, hostOps0_2_sub⟩)
    (show _ ∧ _ ∧ _ from ⟨hostOps0_fresh, hostOps0_1_fresh, hostOps0_2_fresh⟩) main_chain

/-- The re-laying after the product touches only the product's arrays and buffers that pass it by. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes none of the product's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)
/-- It writes the final result only. -/
theorem sfx_writes : ∀ ops ∈ ([hostOps1] : List (List (HloOp τ sig (Elt F)))), ∀ op ∈ ops,
    ∀ b : Ref sig .tc, Proc.devRef .tc b ∈ op.writes → b ∈ ({main_v60} : Finset (Ref sig .tc)) := by
  intro ops hops op hop
  simp only [List.mem_cons, List.mem_nil_iff, or_false] at hops
  rcases hops with rfl
  · simp only [hostOps1, List.mem_cons, List.mem_nil_iff, or_false] at hop
    rcases hop with rfl
    intro b hb
    simp only [StableHlo.reshape_writes, Finset.mem_singleton] at hb
    exact Finset.mem_singleton.mpr (Proc.devRef_injective _ hb)

/-- No host operation before the product writes the array of points: the product finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the three angles. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The blocks the product reads -/

/-- The part of window `w`'s block at grid point `t` that lies inside its array, read off the array as the
    product finds it: 4000 rows of re-laid points (2500 at the last point), or the whole block-diagonal matrix. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## One grid point -/

abbrev r0_0 : Rect S4000x384 := Rect.unit (s := S4000x384) ![0, 0] S4000x384.size inb_S4000x384_S4000x384_0_0
abbrev r0_1 : Rect S384x384 := Rect.unit (s := S384x384) ![0, 0] S384x384.size inb_S384x384_S384x384_0_0

/-- What one grid point leaves in the result's buffer: the product of the rows it holds with the matrix. -/
def out0_2 (x0 : Vec F S4000x384 .f32) (x1 : Vec F S384x384 .bf16) : Vec F S4000x384 .f32 :=
  View.canon [⟨r0_0, k0_pay1 (View.ld x0 r0_0) (View.ld x1 r0_1)⟩]

/-- The one store covers the buffer. -/
theorem cover0_2 (p0 : Vec F S4000x384 .f32) (y : S4000x384.Idx) :
    ∃ pc ∈ ([⟨r0_0, p0⟩] : List (View.Piece (Elt F) S4000x384 .f32)), y ∈ pc.1.set :=
  View.cover_of_tiled [⟨r0_0, p0⟩] S4000x384.size (by rfl) y

set_option maxHeartbeats 1000000 in
/-- One grid point, on whole buffers holding rows `x0` and the matrix `x1`: both are read whole and kept, and the
    result's buffer, whatever it held, ends holding their product. -/
theorem sound_kernel (c : Dev nD) (E : Set ℕ) (i : grid0.Coords) (arg1 : Memref sig .tc .vmem S4000x384 .f32) (harg1 : arg1.IsWhole) (arg2 : Memref sig .tc .vmem S384x384 .bf16) (harg2 : arg2.IsWhole) (arg3 : Memref sig .tc .vmem S4000x384 .f32) (harg3 : arg3.IsWhole)
    (x0 : Vec F S4000x384 .f32) (x1 : Vec F S384x384 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__rot_kernel i arg1 harg1 arg2 harg2 arg3 harg3) K := by
  simp only [cc0__rot_kernel_eq_skeleton]; unfold cc0__rot_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.Kernel.Around

end
-- ==== Proof.FrameBits.lean ====
/-
  The printed kernel's frame: it runs to the end, faults nowhere, and leaves the array of points and the three angles unchanged. The result's window is left undescribed; the rows' window, whose last block overhangs the array, is described on the rows inside the array only.
-/
import proofs.«141301_j84353157693800_2_alg».proof.Proof.AroundBits

set_option maxRecDepth 16384

noncomputable section

namespace Cert.Kernel.Frm

open Cert.Kernel Cert.Kernel.Gen Cert.Kernel.Around
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window is not described: that the arguments end unchanged does not depend on what the
    product leaves there. -/
def forgets0 : Fin 3 → Bool := fun w => w.val == 2

/-- The rows a grid point holds, filled out past the array's end (the last point has 2500 rows of 4000) with a
    word nothing reads. -/
def rows (c : Dev nD) (t : Fin cfg0.N) : S4000x384.Idx → Elt F .f32 :=
  win0_0.fill (grid0.coords t) (fun _ => Scalar.ofBits .f32 0#32) (iblk m c 0 t)

/-- Per core: the three arrays as the product finds them; after a grid point the rows' buffer holds its rows and
    the matrix's buffer the matrix; the result's buffer is left undescribed. -/
def dats (_ : Fin 1) (c : Dev nD) : Dat τ (Elt F) Unit ℕ (UR sig nD τ) ℕ cfg0 c where
  A w := V m c (Pipeline.arrRef spec0 w)
  after w t := match w with
    | ⟨0, _⟩ => rows m c t
    | ⟨1, _⟩ => iblk m c 1 t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = rows m c t := by dsimp only [dats]
theorem after0_1 (c : Dev nD) (t : Fin cfg0.N) : (dats m 0 c).after 1 t = iblk m c 1 t := by dsimp only [dats]

/-- The rows' buffer is fetched at every point: it holds the point's rows, and past the array's end whatever
    the buffer held. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- The matrix's buffer holds the matrix at every point, fetched there (the first) or not. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-- What a grid point is entered with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it hands back: the rows' buffer described on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, H2⟩⟩
  iapply (sound_kernel c Set.univ (grid0.coords t) _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    have e : (cfg0.win 0).fill (cfg0.grid.coords t) d0 ((cfg0.win 0).cut (cfg0.grid.coords t) (rows m c t))
        = win0_0.fill (grid0.coords t) d0 (iblk m c 0 t) := by
      unfold rows
      exact congrArg (win0_0.fill (grid0.coords t) d0) (win0_0.cut_fill _ _ _)
    rw [e]; iexact H0
  isplitl [H1]; · iexact H1
  iexists _; iexact H2

/-- Every grid point meets what the schedule asks of it. -/
theorem body_obligation (c : Dev nD) : BodyObligationLoose (dats (F := F) m 0 c) (defs₀ (F := F)) Variants.none () Set.univ forgets0 := fun t => by
  rw [bigSep_W0, bigSep_W0]
  exact sound_body m c t

set_option backward.isDefEq.respectTransparency.types false in
/-- Every weakly fair execution of the program terminates without a fault, and every buffer that passes the
    product by, other than the final result, ends at what it held when the product started. -/
theorem run_main : θ_run defs (onTc (τ := τ) (main (F := F))) (s₀ m ρ)
    (Pipeline.RDat.FramePostR (cfgs 0) (fun c => (dats m 0 c).toRForget forgets0) ({main_v60} : Finset (Ref sig .tc)) (V m)) :=
  Pipeline.RDat.θ_run_frame_around_T cfgs (0 : Fin 1) launch0 defs₀ Variants.none (fun c => (dats m 0 c).toRForget forgets0)
    ({main_v60} : Finset (Ref sig .tc)) m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The program runs to the end, faults nowhere and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c)⟩)
    (run_main m ρ)

end Cert.Kernel.Frm

end
-- ==== Proof.AroundIdeal.lean ====
/-
  The idealized kernel's program around its one matrix product: what the buffers hold when the product starts, that the program is host operations, the product, and one re-laying of the result, that the operations around the product leave the two argument arrays alone, and what one grid point of the product does to its three buffers. Stated for any float values.
-/
import proofs.«141301_j84353157693800_2_alg».proof.Proof.Gen.KernelIdeal.Launch
import proofs.«141301_j84353157693800_2_alg».proof.Proof.Gen.KernelIdeal.Skeleton
import proofs.«141301_j84353157693800_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one product -/

/-- What each buffer of the core holds when the product starts: the launch contents carried through the
    three stretches of host operations before it (the rotation's entries from the three angles, the
    block-diagonal matrix built from them, the points re-laid 128 to a row). -/
abbrev V0 (c : Dev nD) : Valuation τ sig (Elt F) :=
  StableHlo.after (List.flatten [hostOps0, hostOps0_1, hostOps0_2]) (fun b => m (c, b))
/-- The same, read at a buffer of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the product, the product, and one re-laying of its result. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (show _ ∧ _ ∧ _ from ⟨hostOps0_sub, hostOps0_1_sub, hostOps0_2_sub⟩)
    (show _ ∧ _ ∧ _ from ⟨hostOps0_fresh, hostOps0_1_fresh, hostOps0_2_fresh⟩) main_chain

/-- The re-laying after the product touches only the product's arrays and buffers that pass it by. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes none of the product's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)
/-- It writes the final result only. -/
theorem sfx_writes : ∀ ops ∈ ([hostOps1] : List (List (HloOp τ sig (Elt F)))), ∀ op ∈ ops,
    ∀ b : Ref sig .tc, Proc.devRef .tc b ∈ op.writes → b ∈ ({main_v60} : Finset (Ref sig .tc)) := by
  intro ops hops op hop
  simp only [List.mem_cons, List.mem_nil_iff, or_false] at hops
  rcases hops with rfl
  · simp only [hostOps1, List.mem_cons, List.mem_nil_iff, or_false] at hop
    rcases hop with rfl
    intro b hb
    simp only [StableHlo.reshape_writes, Finset.mem_singleton] at hb
    exact Finset.mem_singleton.mpr (Proc.devRef_injective _ hb)

/-- No host operation before the product writes the array of points: the product finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the three angles. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The blocks the product reads -/

/-- The part of window `w`'s block at grid point `t` that lies inside its array, read off the array as the
    product finds it: 4000 rows of re-laid points (2500 at the last point), or the whole block-diagonal matrix. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## One grid point -/

abbrev r0_0 : Rect S4000x384 := Rect.unit (s := S4000x384) ![0, 0] S4000x384.size inb_S4000x384_S4000x384_0_0
abbrev r0_1 : Rect S384x384 := Rect.unit (s := S384x384) ![0, 0] S384x384.size inb_S384x384_S384x384_0_0

/-- What one grid point leaves in the result's buffer: the product of the rows it holds with the matrix. -/
def out0_2 (x0 : Vec F S4000x384 .f32) (x1 : Vec F S384x384 .bf16) : Vec F S4000x384 .f32 :=
  View.canon [⟨r0_0, k0_pay1 (View.ld x0 r0_0) (View.ld x1 r0_1)⟩]

/-- The one store covers the buffer. -/
theorem cover0_2 (p0 : Vec F S4000x384 .f32) (y : S4000x384.Idx) :
    ∃ pc ∈ ([⟨r0_0, p0⟩] : List (View.Piece (Elt F) S4000x384 .f32)), y ∈ pc.1.set :=
  View.cover_of_tiled [⟨r0_0, p0⟩] S4000x384.size (by rfl) y

set_option maxHeartbeats 1000000 in
/-- One grid point, on whole buffers holding rows `x0` and the matrix `x1`: both are read whole and kept, and the
    result's buffer, whatever it held, ends holding their product. -/
theorem sound_kernel (c : Dev nD) (E : Set ℕ) (i : grid0.Coords) (arg1 : Memref sig .tc .vmem S4000x384 .f32) (harg1 : arg1.IsWhole) (arg2 : Memref sig .tc .vmem S384x384 .bf16) (harg2 : arg2.IsWhole) (arg3 : Memref sig .tc .vmem S4000x384 .f32) (harg3 : arg3.IsWhole)
    (x0 : Vec F S4000x384 .f32) (x1 : Vec F S384x384 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__rot_kernel i arg1 harg1 arg2 harg2 arg3 harg3) K := by
  simp only [cc0__rot_kernel_eq_skeleton]; unfold cc0__rot_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.KernelIdeal.Around

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.RunIdeal.lean ====
/-
  The idealized kernel's run with every buffer named. At the extended reals one grid point's product has entry
  (p, q) equal to the sum over k of rows[p, k] · matrix[k, q], so a row of the result depends on the same row of
  the rows' buffer only: what the last grid point computes from the 1500 rows past the array's end never reaches
  the rows that are written back. Hence after the run the product's array holds, row by row, the re-laid points
  times the block-diagonal matrix.
-/
import proofs.«141301_j84353157693800_2_alg».proof.Proof.AroundIdeal
import proofs.«141301_j84353157693800_2_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.Run

open Cert.KernelIdeal Cert.KernelIdeal.Gen Cert.KernelIdeal.Around
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

theorem hz : (![0, 0] : Fin 2 → Nat) = fun _ => 0 := funext fun a => by fin_cases a <;> rfl

/-- One grid point's result, entry by entry: rows times matrix as a plain sum (changes of float format are the
    identity at the extended reals, the accumulator starts at zero). -/
theorem out_apply (x0 : Vec Ideal S4000x384 .f32) (x1 : Vec Ideal S384x384 .bf16) (p : Fin 4000) (q : Fin 384) :
    out0_2 (F := Ideal) x0 x1 (ix2 p q) = ∑ k : Fin 384, x0 (ix2 p k) * x1 (ix2 k q) := by
  unfold out0_2
  rw [View.canon_unit_zero hz]
  simp only [View.ld_unit_zero (S := S4000x384) hz, View.ld_unit_zero (S := S384x384) hz]
  unfold k0_pay1
  simp only [shapeCast_self]
  exact LibMatmulNN.matmul_zero_apply 4000 384 384 none x0 x1 p q

/-- The grid, decided point by point: the rows' window and the result's window sit at block row `t`, all 384
    columns wide, and hold the same number of rows inside the array — 4000, but 2500 at the last point —; the
    matrix's window never moves. -/
theorem grid_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_0.xsize (grid0.coords t) (1 : Fin 2) = 384 ∧ win0_2.xsize (grid0.coords t) (1 : Fin 2) = 384
    ∧ win0_0.xsize (grid0.coords t) (0 : Fin 2) = win0_2.xsize (grid0.coords t) (0 : Fin 2)
    ∧ win0_2.xsize (grid0.coords t) (0 : Fin 2) = 4000 - 1500 * (t.val / 15) :=
  (by decide +kernel : ∀ t : Fin grid0.N, _)

/-- A row of one grid point's result inside the array depends only on the rows of the rows' buffer inside the
    array: if two buffers agree there, so do the results. -/
theorem cut_out (t : Fin cfg0.N) (X Y : Vec Ideal S4000x384 .f32) (B : Vec Ideal S384x384 .bf16)
    (h : win0_0.cut (grid0.coords t) X = win0_0.cut (grid0.coords t) Y) :
    win0_2.cut (grid0.coords t) (out0_2 (F := Ideal) X B) = win0_2.cut (grid0.coords t) (out0_2 (F := Ideal) Y B) := by
  obtain ⟨-, -, -, -, -, -, w01, w21, w00, -⟩ := grid_facts t
  funext j
  have hp : (j 0).val < 4000 := lt_of_lt_of_le (j 0).isLt (win0_2.xsize_le (grid0.coords t) 0)
  have hq : (j 1).val < 384 := lt_of_lt_of_le (j 1).isLt (win0_2.xsize_le (grid0.coords t) 1)
  have e : win0_2.xinj (grid0.coords t) j = ix2 (⟨(j 0).val, hp⟩ : Fin 4000) (⟨(j 1).val, hq⟩ : Fin 384) :=
    funext fun a => Fin.ext (by match a with | ⟨0, _⟩ => rfl | ⟨1, _⟩ => rfl)
  show out0_2 (F := Ideal) X B (win0_2.xinj (grid0.coords t) j) = out0_2 (F := Ideal) Y B (win0_2.xinj (grid0.coords t) j)
  rw [e, out_apply, out_apply]
  refine Finset.sum_congr rfl fun k _ => ?_
  have hj0 : (j 0).val < win0_0.xsize (grid0.coords t) 0 := by
    have h : (j 0).val < win0_2.xsize (grid0.coords t) 0 := (j 0).isLt
    omega
  have hk1 : k.val < win0_0.xsize (grid0.coords t) 1 := by have := k.isLt; omega
  let j' : (win0_0.xblock (grid0.coords t)).Idx := fun a => match a with
    | ⟨0, _⟩ => ⟨(j 0).val, hj0⟩
    | ⟨1, _⟩ => ⟨k.val, hk1⟩
  have e' : win0_0.xinj (grid0.coords t) j' = ix2 (⟨(j 0).val, hp⟩ : Fin 4000) k :=
    funext fun a => Fin.ext (by match a with | ⟨0, _⟩ => rfl | ⟨1, _⟩ => rfl)
  have hXY : X (win0_0.xinj (grid0.coords t) j') = Y (win0_0.xinj (grid0.coords t) j') := congrFun h j'
  rw [e'] at hXY
  rw [hXY]

/-- The rows a grid point holds, filled out past the array's end with zeros. -/
def rows (c : Dev nD) (t : Fin cfg0.N) : S4000x384.Idx → Elt Ideal .f32 :=
  win0_0.fill (grid0.coords t) (fun _ => (0 : EReal)) (iblk m c 0 t)

/-- Per core: the three arrays as the product finds them; after a grid point the rows' buffer holds its rows, the
    matrix's buffer the matrix, and the result's buffer their product. -/
def dats (_ : Fin 1) (c : Dev nD) : Dat τ (Elt Ideal) Unit ℕ (UR sig nD τ) ℕ cfg0 c where
  A w := V m c (Pipeline.arrRef spec0 w)
  after w t := match w with
    | ⟨0, _⟩ => rows m c t
    | ⟨1, _⟩ => iblk m c 1 t
    | ⟨2, _⟩ => out0_2 (F := Ideal) (rows m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = rows m c t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = out0_2 (F := Ideal) (rows m c t) (iblk m c 1 t) := by dsimp only [dats]

/-- The rows' buffer is fetched at every point: it holds the point's rows, and past the array's end whatever the
    buffer held. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- The matrix's buffer holds the matrix at every point, fetched there (the first) or not. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-- The result's buffer holds nothing the point reads: it was written back at the point before. -/
theorem before0_2 (c : Dev nD) (t : Fin cfg0.N) (d) : (dats m 0 c).before 2 t d = d := by
  unfold Dat.before
  rw [if_neg (by rw [show (cfg0.win 2).fetch t = false from (by decide +kernel : ∀ t : Fin grid0.N, win0_2.fetch t = false) t]; exact Bool.false_ne_true)]
  by_cases h0 : t.val = 0
  · rw [if_pos h0]
  · rw [if_neg h0]; exact if_pos (flush0_2 _)

/-- What a grid point is entered with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back: the rows' and the result's buffers described on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ (∃ d, owns (c : Thread nD τ) (st0_2 t) fullShare
        ((cfg0.win 2).fill (cfg0.grid.coords t) d ((cfg0.win 2).cut (cfg0.grid.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    have e : (cfg0.win 0).fill (cfg0.grid.coords t) d0 ((cfg0.win 0).cut (cfg0.grid.coords t) (rows m c t))
        = win0_0.fill (grid0.coords t) d0 (iblk m c 0 t) := by
      unfold rows
      exact congrArg (win0_0.fill (grid0.coords t) d0) (win0_0.cut_fill _ _ _)
    rw [e]; iexact H0
  isplitl [H1]; · iexact H1
  iexists out0_2 (F := Ideal) (win0_0.fill (grid0.coords t) d0 (iblk m c 0 t)) (iblk m c 1 t)
  have e2 : (cfg0.win 2).fill (cfg0.grid.coords t) (out0_2 (F := Ideal) (win0_0.fill (grid0.coords t) d0 (iblk m c 0 t)) (iblk m c 1 t))
        ((cfg0.win 2).cut (cfg0.grid.coords t) (out0_2 (F := Ideal) (rows m c t) (iblk m c 1 t)))
      = out0_2 (F := Ideal) (win0_0.fill (grid0.coords t) d0 (iblk m c 0 t)) (iblk m c 1 t) := by
    refine win0_2.fill_congr_cut (grid0.coords t) ?_
    refine cut_out t _ _ _ ?_
    unfold rows
    rw [win0_0.cut_fill, win0_0.cut_fill]
  rw [e2]; iexact H2

/-- Every grid point meets what the schedule asks of it. -/
theorem body_obligation (c : Dev nD) : BodyObligationLoose (dats m 0 c) (defs₀ (F := Ideal)) Variants.none () Set.univ := fun t => by
  rw [bigSep_W0, bigSep_W0]
  exact sound_body m c t

set_option backward.isDefEq.respectTransparency.types false in
/-- Every weakly fair execution of the idealized kernel terminates without a fault; the product's arrays end at what
    the grid points wrote back, and every other buffer at what the re-laying after the product leaves. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Run

end
-- ==== Proof.ArrayIdeal.lean ====
/-
  The product's array after the idealized kernel's run, as ONE function of what the product found: entry (r, j) of
  the 62500 × 384 result is the sum over k of points[r, k] · matrix[k, j]. Each grid point writes back rows
  4000·t … of that function (the last point only its 2500 rows inside the array), and the sixteen blocks cover the
  array. The program's final result is this array re-laid three to a row.
-/
import proofs.«141301_j84353157693800_2_alg».proof.Proof.RunIdeal

set_option maxRecDepth 16384

noncomputable section

namespace Cert.KernelIdeal.Arr

open Cert.KernelIdeal Cert.KernelIdeal.Gen Cert.KernelIdeal.Around Cert.KernelIdeal.Run
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Rows times matrix over the whole re-laid array. -/
def rowsTimes (xf : Vec Ideal S62500x384 .f32) (B : Vec Ideal S384x384 .bf16) : Vec Ideal S62500x384 .f32 :=
  fun i => ∑ k : Fin 384, xf (ix2 (i 0) k) * B (ix2 k (i 1))

/-- For ANY contents of the two operand arrays: the rows inside the array of one grid point's product, computed
    from the point's block of rows (filled out with zeros) and the matrix's block, are block `t` of the whole-array
    product. -/
theorem block_eq (A58 : Vec Ideal S62500x384 .f32) (A57 : Vec Ideal S384x384 .bf16) (t : Fin cfg0.N) :
    win0_2.cut (grid0.coords t)
        (out0_2 (F := Ideal) (win0_0.fill (grid0.coords t) (fun _ => (0 : EReal)) ((win0_0.blk t).view.read (Elt Ideal) A58))
          ((win0_1.blk t).view.read (Elt Ideal) A57))
      = (win0_2.blk t).view.read (Elt Ideal) (rowsTimes A58 A57) := by
  obtain ⟨i00, i01, i10, i11, i20, i21, w01, w21, w00, -⟩ := grid_facts t
  funext j
  have hp : (j 0).val < 4000 := lt_of_lt_of_le (j 0).isLt (win0_2.xsize_le (grid0.coords t) 0)
  have hq : (j 1).val < 384 := lt_of_lt_of_le (j 1).isLt (win0_2.xsize_le (grid0.coords t) 1)
  have e : win0_2.xinj (grid0.coords t) j = ix2 (⟨(j 0).val, hp⟩ : Fin 4000) (⟨(j 1).val, hq⟩ : Fin 384) :=
    funext fun a => Fin.ext (by match a with | ⟨0, _⟩ => rfl | ⟨1, _⟩ => rfl)
  show out0_2 (F := Ideal) _ _ (win0_2.xinj (grid0.coords t) j) = rowsTimes A58 A57 ((win0_2.blk t).view.emb j)
  rw [e, out_apply]
  unfold rowsTimes
  refine Finset.sum_congr rfl fun k _ => ?_
  have hj0 : (j 0).val < win0_0.xsize (grid0.coords t) 0 := by
    have h : (j 0).val < win0_2.xsize (grid0.coords t) 0 := (j 0).isLt
    omega
  have hk1 : k.val < win0_0.xsize (grid0.coords t) 1 := by have := k.isLt; omega
  let j' : (win0_0.xblock (grid0.coords t)).Idx := fun a => match a with
    | ⟨0, _⟩ => ⟨(j 0).val, hj0⟩
    | ⟨1, _⟩ => ⟨k.val, hk1⟩
  have e' : ix2 (⟨(j 0).val, hp⟩ : Fin 4000) k = win0_0.xinj (grid0.coords t) j' :=
    funext fun a => Fin.ext (by match a with | ⟨0, _⟩ => rfl | ⟨1, _⟩ => rfl)
  have hr : win0_0.fill (grid0.coords t) (fun _ => (0 : EReal)) ((win0_0.blk t).view.read (Elt Ideal) A58) (ix2 (⟨(j 0).val, hp⟩ : Fin 4000) k)
      = A58 (ix2 (((win0_2.blk t).view.emb j) 0) k) := by
    rw [e', win0_0.fill_xinj]
    show A58 ((win0_0.blk t).view.emb j') = _
    congr 1
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 384 + 1 * k.val = k.val; omega
  have hb : (win0_1.blk t).view.read (Elt Ideal) A57 (ix2 k (⟨(j 1).val, hq⟩ : Fin 384))
      = A57 (ix2 k (((win0_2.blk t).view.emb j) 1)) := by
    show A57 ((win0_1.blk t).view.emb (ix2 k (⟨(j 1).val, hq⟩ : Fin 384))) = _
    congr 1
    funext a; apply Fin.ext
    match a with
    | ⟨0, _⟩ => show win0_1.index t (0 : Fin 2) * 384 + 1 * k.val = k.val; omega
    | ⟨1, _⟩ => show win0_1.index t (1 : Fin 2) * 384 + 1 * (j 1).val = win0_2.index t (1 : Fin 2) * 384 + 1 * (j 1).val; omega
  rw [hr, hb]

/-- What grid point `t` writes back is block `t` of that product of the arrays as the product finds them. -/
theorem flushed_eq (c : Dev nD) (t : Fin cfg0.N) :
    (dats m 0 c).flushed 2 t
      = ((cfg0.win 2).blk t).view.read (Elt Ideal)
          (rowsTimes (V m c (Pipeline.arrRef spec0 0)) (V m c (Pipeline.arrRef spec0 1))) := by
  show (cfg0.win 2).cut (grid0.coords t) ((dats m 0 c).after 2 t) = _
  rw [after0_2]
  unfold rows iblk
  exact block_eq _ _ t

/-- An entry of the array lies in grid point `t`'s block iff its row is among the block's rows inside the array
    (and its column among the 384). -/
theorem mem_blk (t : Fin cfg0.N) (i : S62500x384.Idx) :
    i ∈ ((cfg0.win 2).blk t).view.set ↔ ∀ a : Fin 2, win0_2.index t a * S4000x384.size a ≤ (i a).val
      ∧ (i a).val < win0_2.index t a * S4000x384.size a + win0_2.xsize (grid0.coords t) a := by
  show i ∈ ((View.whole main_v59).slice (win0_2.rect t)).set ↔ _
  rw [View.set_slice_whole, Rect.mem_set_unit]
  exact Iff.rfl

/-- Row `r` is written back by grid point `r / 4000`. -/
theorem cover (i : S62500x384.Idx) :
    ∃ t : Fin cfg0.N, (cfg0.win 2).flush t = true ∧ i ∈ ((cfg0.win 2).blk t).view.set := by
  have hi0 : (i 0).val < 62500 := (i 0).isLt
  have hi1 : (i 1).val < 384 := (i 1).isLt
  have hN : (i 0).val / 4000 < cfg0.N := by rw [show cfg0.N = 16 from N_0]; omega
  refine ⟨⟨(i 0).val / 4000, hN⟩, flush0_2 _, ?_⟩
  rw [mem_blk]
  obtain ⟨-, -, -, -, i20, i21, -, w21, -, hx⟩ := grid_facts ⟨(i 0).val / 4000, hN⟩
  intro a
  match a with
  | ⟨0, _⟩ =>
    show win0_2.index ⟨(i 0).val / 4000, hN⟩ (0 : Fin 2) * 4000 ≤ (i 0).val
      ∧ (i 0).val < win0_2.index ⟨(i 0).val / 4000, hN⟩ (0 : Fin 2) * 4000 + win0_2.xsize (grid0.coords ⟨(i 0).val / 4000, hN⟩) (0 : Fin 2)
    rw [i20, hx]
    show (i 0).val / 4000 * 4000 ≤ (i 0).val ∧ (i 0).val < (i 0).val / 4000 * 4000 + (4000 - 1500 * ((i 0).val / 4000 / 15))
    omega
  | ⟨1, _⟩ =>
    show win0_2.index ⟨(i 0).val / 4000, hN⟩ (1 : Fin 2) * 384 ≤ (i 1).val
      ∧ (i 1).val < win0_2.index ⟨(i 0).val / 4000, hN⟩ (1 : Fin 2) * 384 + win0_2.xsize (grid0.coords ⟨(i 0).val / 4000, hN⟩) (1 : Fin 2)
    rw [i21, w21]
    omega

/-- The product's array after the run. -/
theorem final (c : Dev nD) :
    (dats m 0 c).arrAt 2 cfg0.N = rowsTimes (V m c (Pipeline.arrRef spec0 0)) (V m c (Pipeline.arrRef spec0 1)) :=
  (dats m 0 c).arrAt_eq_of_cover 2 _ (fun t _ => flushed_eq m c t) cover

end Cert.KernelIdeal.Arr

end
-- ==== Proof.LibTypedRef.lean ====
/-
  A typed reference pairs a buffer with the contents type its values have; contents are carried to the buffer's own
  type and back along the equation between the two types.
-/
import Idealize.ShloMosaic.Lib.StableHlo

namespace Idealize.ShloMosaic.StableHlo.TRef

/-- Carrying contents of the stated type to the buffer's own type and back changes nothing: both transports are along
    one equation of types, in opposite directions. -/
theorem ofBuf_toBuf {sig : RefSig} {Val : EltTy → Type} {T : BufTy} (x : TRef sig T) (v : T.Contents Val) :
    x.ofBuf (x.toBuf v) = v := by
  obtain ⟨r, ty_eq, od, us⟩ := x
  subst ty_eq
  rfl

end Idealize.ShloMosaic.StableHlo.TRef
-- ==== Proof.HostIdeal.lean ====
/-
  What the product finds in its two operand arrays. The first stretch of host operations computes the transposed
  rotation matrix from the three angles — by the same operations, in the same order, as the reference does — and a
  128 × 128 identity matrix (an iota compared with an iota); the second stretch multiplies a broadcast of the one by
  a broadcast of the other and re-lays the 128 × 3 × 128 × 3 result as 384 × 384, so that entry (k, j) is
  identity[k div 3, j div 3] · rotation[k mod 3, j mod 3]; the third re-lays the points 128 to a row.
-/
import proofs.«141301_j84353157693800_2_alg».proof.Proof.AroundIdeal
import proofs.«141301_j84353157693800_2_alg».proof.Proof.LibTypedRef
import proofs.«141301_j84353157693800_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.HostVal

open Cert.KernelIdeal Cert.KernelIdeal.Gen Cert.KernelIdeal.Around
open Idealize.ShloMosaic Idealize.ShloMosaic.TcCoe Idealize.SL.Sem Idealize.ShloMosaic.StableHlo Idealize.ShloMosaic.ValueIdx

variable (m : (ℓ : Loc nD τ sig) → Buf (Elt Ideal) ℓ)

/-- Reads a buffer after a literal list of host operations: each operation's own result is its function of its
    operands' contents, every other buffer is untouched. -/
macro "host_results" : tactic =>
  `(tactic| (simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne']))

/-- The 128 × 128 identity matrix as the operations build it: row number compared with column number, as a float. -/
def eyeI : FVec Ideal S128x128 .f32 :=
  uitofp (F := Ideal) .f32 (cmpi .eq (addi (iotaInDim S128x128 32 0) (broadcastInDim S128x128 ![] bcast_S_S128x128 (constantI S_ 32 0#32)))
    (iotaInDim S128x128 32 1))

/-- The Kronecker product of a 128 × 128 matrix with a 3 × 3 one as the operations build it, at the matrix unit's
    operand format. -/
def kron (E : FVec Ideal S128x128 .f32) (R : FVec Ideal S3x3 .f32) : FVec Ideal S384x384 .bf16 :=
  truncf (F := Ideal) .bf16 (shapeCast S384x384
    (mulf (broadcastInDim S128x3x128x3 ![0, 1, 2, 3] bcast_S128x1x128x1_S128x3x128x3_0_1_2_3
            (broadcastInDim S128x1x128x1 ![0, 2] bcast_S128x128_S128x1x128x1_0_2 E))
          (broadcastInDim S128x3x128x3 ![0, 1, 2, 3] bcast_S1x3x1x3_S128x3x128x3_0_1_2_3
            (broadcastInDim S1x3x1x3 ![1, 3] bcast_S3x3_S1x3x1x3_1_3 R)))
    shapeCasts_S128x3x128x3_S384x384) bitsLt_bf16_f32

/-- The buffers after the first stretch of host operations. -/
abbrev W (c : Dev nD) : Valuation τ sig (Elt Ideal) := StableHlo.after hostOps0 (fun b => m (c, b))

/-- The three stretches, one after the other. -/
theorem V0_eq (c : Dev nD) : V0 m c = StableHlo.after hostOps0_2 (StableHlo.after hostOps0_1 (W m c)) := by
  show StableHlo.after (hostOps0 ++ (hostOps0_1 ++ (hostOps0_2 ++ []))) _ = _
  rw [List.append_nil, StableHlo.after_append, StableHlo.after_append]

/-- The matrix operand after the last two stretches, from whatever the first left. -/
theorem tail57 (X : Valuation τ sig (Elt Ideal)) :
    StableHlo.after hostOps0_2 (StableHlo.after hostOps0_1 X) (Proc.devRef .tc main_v57)
      = kron (X (Proc.devRef .tc main_v55)) (X (Proc.devRef .tc main_v49)) := by
  simp only [hostOps0_1, hostOps0_2]
  host_results
  simp only [TRef.ofBuf_toBuf]
  rfl

/-- The points operand after the last two stretches. -/
theorem tail58 (X : Valuation τ sig (Elt Ideal)) :
    StableHlo.after hostOps0_2 (StableHlo.after hostOps0_1 X) (Proc.devRef .tc main_v58)
      = shapeCast S62500x384 (X (Proc.devRef .tc main_arg0)) shapeCasts_S8000000x3_S62500x384 := by
  simp only [hostOps0_1, hostOps0_2]
  host_results
  rfl

/-- The first stretch does not write the array of points. -/
theorem W_arg0 (c : Dev nD) : W m c (Proc.devRef .tc main_arg0) = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

set_option maxHeartbeats 4000000 in
/-- The first stretch leaves the transposed rotation matrix exactly as the reference's operations compute it. -/
theorem W_v49 (c : Dev nD) : W m c (Proc.devRef .tc main_v49)
    = Cert.ReferenceIdeal.Read.val_main_v49 (F := Ideal) (m ((c : Thread nD τ).loc main_arg1)) := by
  show StableHlo.after hostOps0 (fun b => m (c, b)) (Proc.devRef .tc main_v49) = _
  simp only [hostOps0]
  host_results
  rfl

set_option maxHeartbeats 4000000 in
/-- And the identity matrix. -/
theorem W_v55 (c : Dev nD) : W m c (Proc.devRef .tc main_v55) = eyeI := by
  show StableHlo.after hostOps0 (fun b => m (c, b)) (Proc.devRef .tc main_v55) = _
  simp only [hostOps0]
  host_results
  rfl

/-- The product's first operand: the points, 128 to a row. -/
theorem V_v58 (c : Dev nD) : V m c main_v58
    = shapeCast S62500x384 (m ((c : Thread nD τ).loc main_arg0)) shapeCasts_S8000000x3_S62500x384 := by
  show V0 m c (Proc.devRef .tc main_v58) = _
  rw [V0_eq, tail58, W_arg0]

/-- The product's second operand: the block-diagonal matrix of 128 copies of the transposed rotation. -/
theorem V_v57 (c : Dev nD) : V m c main_v57
    = kron eyeI (Cert.ReferenceIdeal.Read.val_main_v49 (F := Ideal) (m ((c : Thread nD τ).loc main_arg1))) := by
  show V0 m c (Proc.devRef .tc main_v57) = _
  rw [V0_eq, tail57, W_v55, W_v49]

/-- The identity matrix, entry by entry. -/
theorem eyeI_apply (p q : Fin 128) : eyeI (ix2 p q) = if p.val = q.val then (1 : EReal) else 0 := by
  have hp := p.isLt
  have hq := q.isLt
  show (((IntOp.cmpi CmpIPredicate.eq (IntOp.addi (BitVec.ofNat 32 p.val) (0#32)) (BitVec.ofNat 32 q.val)).toNat : ℝ) : EReal) = _
  by_cases h : p.val = q.val
  · rw [if_pos h, h]; simp [IntOp.cmpi, IntOp.addi]
  · rw [if_neg h]
    have hne : ¬ (BitVec.ofNat 32 p.val = BitVec.ofNat 32 q.val) := by
      intro e
      apply h
      have := congrArg BitVec.toNat e
      simp [BitVec.toNat_ofNat] at this
      omega
    simp [IntOp.cmpi, IntOp.addi, hne]

/-- The Kronecker product, entry by entry. -/
theorem kron_apply (E : FVec Ideal S128x128 .f32) (R : FVec Ideal S3x3 .f32) (k j : Fin 384) :
    kron E R (ix2 k j)
      = E (ix2 (⟨k.val / 3, by have := k.isLt; omega⟩ : Fin 128) (⟨j.val / 3, by have := j.isLt; omega⟩ : Fin 128))
        * R (ix2 (⟨k.val % 3, Nat.mod_lt _ (by decide)⟩ : Fin 3) (⟨j.val % 3, Nat.mod_lt _ (by decide)⟩ : Fin 3)) := by
  have hk := k.isLt
  have hj := j.isLt
  unfold kron
  rw [truncf_apply]
  rw [shapeCast_apply _ _ (ix2 k j)
    (ix4 (⟨k.val / 3, by omega⟩ : Fin 128) (⟨k.val % 3, Nat.mod_lt _ (by decide)⟩ : Fin 3) (⟨j.val / 3, by omega⟩ : Fin 128) (⟨j.val % 3, Nat.mod_lt _ (by decide)⟩ : Fin 3))
    (by rw [Shape.rowMajor_val_four, Shape.rowMajor_val_two]
        show ((k.val / 3 * 3 + k.val % 3) * 128 + j.val / 3) * 3 + j.val % 3 = k.val * 384 + j.val
        omega)]
  rw [mulf_apply]
  congr 1
  · rw [broadcastInDim_apply _ _ _ _ (ix4 (⟨k.val / 3, by omega⟩ : Fin 128) (0 : Fin 1) (⟨j.val / 3, by omega⟩ : Fin 128) (0 : Fin 1))
        (by intro a; match a with | ⟨0, _⟩ => rfl | ⟨1, _⟩ => rfl | ⟨2, _⟩ => rfl | ⟨3, _⟩ => rfl),
      broadcastInDim_apply _ _ _ _ (ix2 (⟨k.val / 3, by omega⟩ : Fin 128) (⟨j.val / 3, by omega⟩ : Fin 128))
        (by intro a; match a with | ⟨0, _⟩ => rfl | ⟨1, _⟩ => rfl)]
  · rw [broadcastInDim_apply _ _ _ _ (ix4 (0 : Fin 1) (⟨k.val % 3, Nat.mod_lt _ (by decide)⟩ : Fin 3) (0 : Fin 1) (⟨j.val % 3, Nat.mod_lt _ (by decide)⟩ : Fin 3))
        (by intro a; match a with | ⟨0, _⟩ => rfl | ⟨1, _⟩ => rfl | ⟨2, _⟩ => rfl | ⟨3, _⟩ => rfl),
      broadcastInDim_apply _ _ _ _ (ix2 (⟨k.val % 3, Nat.mod_lt _ (by decide)⟩ : Fin 3) (⟨j.val % 3, Nat.mod_lt _ (by decide)⟩ : Fin 3))
        (by intro a; match a with | ⟨0, _⟩ => rfl | ⟨1, _⟩ => rfl)]

end Cert.KernelIdeal.HostVal

end
-- ==== Proof.LibBlockDiag.lean ====
/-
# One column of a row vector times a block-diagonal matrix

Let `R` be a `3 × 3` matrix over the extended reals and let `B = I₁₂₈ ⊗ R` be the
`384 × 384` block-diagonal matrix with `128` copies of `R` on its diagonal, i.e.
`B k j = [k / 3 = j / 3] * R (k % 3) (j % 3)`.
For a row vector `x` with `384` entries, the `j`-th entry of `x * B` only sees the three
entries of `x` lying in the diagonal block of `j`:

  `∑ k, x k * B k j = ∑ a < 3, x (3 * (j / 3) + a) * R a (j % 3)`.

In the extended reals `0 * y = 0` and `y * 0 = 0` hold for every `y` (including `±∞`),
and addition is a commutative monoid, so no finiteness hypothesis is needed: the
off-block terms are literally `0`.

The file also records the two index identities for the flattening
`(n, a) ↦ n * 3 + a` of `ℕ × Fin 3` taken modulo `384 = 128 * 3`.
-/
import Mathlib.Data.EReal.Inv
import Mathlib.Algebra.BigOperators.Group.Finset.Basic
import Mathlib.Data.Fintype.BigOperators

namespace Cert.BlockDiag

open Finset

/-- Quotient of the flattened index: `(n * 3 + a) / 384 = n / 128` for `a < 3`. -/
theorem flat_div (n a : Nat) (ha : a < 3) : (n * 3 + a) / 384 = n / 128 := by
  omega

/-- Remainder of the flattened index: `(n * 3 + a) % 384 = 3 * (n % 128) + a` for `a < 3`. -/
theorem flat_mod (n a : Nat) (ha : a < 3) : (n * 3 + a) % 384 = 3 * (n % 128) + a := by
  omega

/-- Column `j` of `x * (I₁₂₈ ⊗ R)` over the extended reals: only the three terms of the
diagonal block containing `j` survive. Off the block the matrix entry is `0 * R _ _ = 0`
and `x k * 0 = 0`; on the block it is `1 * R _ _ = R _ _`. The surviving indices
`{k | k / 3 = j / 3}` are in bijection with `Fin 3` through `k ↦ k % 3`, with inverse
`a ↦ 3 * (j / 3) + a`. -/
theorem blockdiag_row (x : Fin 384 → EReal) (R : Fin 3 → Fin 3 → EReal) (j : Fin 384) :
    (∑ k : Fin 384, x k * ((if k.val / 3 = j.val / 3 then (1 : EReal) else 0) *
        R ⟨k.val % 3, Nat.mod_lt _ (by decide)⟩ ⟨j.val % 3, Nat.mod_lt _ (by decide)⟩))
      = ∑ a : Fin 3, x ⟨3 * (j.val / 3) + a.val, by have := j.isLt; have := a.isLt; omega⟩ *
          R a ⟨j.val % 3, Nat.mod_lt _ (by decide)⟩ := by
  -- Step 1: each summand is `x k * R (k % 3) (j % 3)` on the block of `j` and `0` off it.
  have h1 : ∀ k : Fin 384,
      x k * ((if k.val / 3 = j.val / 3 then (1 : EReal) else 0) *
        R ⟨k.val % 3, Nat.mod_lt _ (by decide)⟩ ⟨j.val % 3, Nat.mod_lt _ (by decide)⟩)
      = if k.val / 3 = j.val / 3 then
          x k * R ⟨k.val % 3, Nat.mod_lt _ (by decide)⟩ ⟨j.val % 3, Nat.mod_lt _ (by decide)⟩
        else 0 := by
    intro k
    by_cases h : k.val / 3 = j.val / 3
    · rw [if_pos h, if_pos h, one_mul]
    · rw [if_neg h, if_neg h, zero_mul, mul_zero]
  rw [Finset.sum_congr rfl (fun k _ => h1 k), ← Finset.sum_filter]
  -- Step 2: reindex the block `{k | k / 3 = j / 3}` by `Fin 3`.
  refine Finset.sum_nbij'
    (fun k : Fin 384 => (⟨k.val % 3, Nat.mod_lt _ (by decide)⟩ : Fin 3))
    (fun a : Fin 3 =>
      (⟨3 * (j.val / 3) + a.val, by have := j.isLt; have := a.isLt; omega⟩ : Fin 384))
    ?_ ?_ ?_ ?_ ?_
  · intro k _
    exact Finset.mem_univ _
  · intro a _
    rw [Finset.mem_filter]
    refine ⟨Finset.mem_univ _, ?_⟩
    have := a.isLt
    show (3 * (j.val / 3) + a.val) / 3 = j.val / 3
    omega
  · intro k hk
    rw [Finset.mem_filter] at hk
    have hk2 : k.val / 3 = j.val / 3 := hk.2
    apply Fin.ext
    show 3 * (j.val / 3) + k.val % 3 = k.val
    omega
  · intro a _
    have := a.isLt
    apply Fin.ext
    show (3 * (j.val / 3) + a.val) % 3 = a.val
    omega
  · intro k hk
    rw [Finset.mem_filter] at hk
    have hk2 : k.val / 3 = j.val / 3 := hk.2
    have hx : (⟨3 * (j.val / 3) + k.val % 3,
        by have := j.isLt; have := Nat.mod_lt k.val (show 0 < 3 by decide); omega⟩ : Fin 384) = k := by
      apply Fin.ext
      show 3 * (j.val / 3) + k.val % 3 = k.val
      omega
    show x k * R _ _ = x _ * R _ _
    rw [hx]

end Cert.BlockDiag
-- ==== Proof.ValueIdeal.lean ====
/-
  The idealized kernel's result is the reference's. After the run the final result is the product's array re-laid
  three to a row; the product's array is (points re-laid 128 to a row) times the block-diagonal matrix of 128 copies
  of the transposed rotation. At entry (n, b): the re-laid row is n div 128, the column 3·(n mod 128) + b; of the 384
  terms of the sum only those of the column's own diagonal block are not zero times something, and zero times any
  extended real is zero; the three that remain are points[n, a] · rotationᵀ[a, b], a = 0, 1, 2 — the reference's
  matrix product, entry by entry. No finiteness of the inputs is used.
-/
import proofs.«141301_j84353157693800_2_alg».proof.Proof.ArrayIdeal
import proofs.«141301_j84353157693800_2_alg».proof.Proof.HostIdeal
import proofs.«141301_j84353157693800_2_alg».proof.Proof.LibBlockDiag

set_option maxRecDepth 16384

noncomputable section

namespace Cert.KernelIdeal.Val

open Cert.KernelIdeal Cert.KernelIdeal.Gen Cert.KernelIdeal.Around Cert.KernelIdeal.Run Cert.KernelIdeal.Arr Cert.KernelIdeal.HostVal
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The re-laying after the product does not write the array of points, and the product does not stage it. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor the three angles. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The final result is the product's array after the run, re-laid three to a row. -/
theorem W_main_v60 (c : Dev nD) :
    Pipeline.afterTail₀ cfgs (dats m) 0 (V0 m) [hostOps1] c main_v60
      = shapeCast S8000000x3 ((dats m 0 c).arrAt 2 cfg0.N) shapeCasts_S62500x384_S8000000x3 := by
  unfold Pipeline.afterTail₀
  show StableHlo.after hostOps1 _ (Proc.devRef .tc main_v60) = _
  simp only [hostOps1]
  host_results
  exact congrArg (fun X => shapeCast S8000000x3 X shapeCasts_S62500x384_S8000000x3)
    (Pipeline.withArrays_arr (τ := τ) spec0 launch0.win.arr_inj c (V0 m c) (fun w => (dats m 0 c).arrAt w cfg0.N) 2)

/-- The kernel's result as one function of the points and the angles. -/
def kernelVal (x : FVec Ideal S8000000x3 .f32) (w : FVec Ideal S3x1 .f32) : FVec Ideal S8000000x3 .f32 :=
  shapeCast S8000000x3
    (rowsTimes (shapeCast S62500x384 x shapeCasts_S8000000x3_S62500x384)
      (kron eyeI (Cert.ReferenceIdeal.Read.val_main_v49 (F := Ideal) w)))
    shapeCasts_S62500x384_S8000000x3

/-- The product's array after the run, from the arguments. -/
theorem final_args (c : Dev nD) : (dats m 0 c).arrAt 2 cfg0.N
    = rowsTimes (shapeCast S62500x384 (m ((c : Thread nD τ).loc main_arg0)) shapeCasts_S8000000x3_S62500x384)
        (kron eyeI (Cert.ReferenceIdeal.Read.val_main_v49 (F := Ideal) (m ((c : Thread nD τ).loc main_arg1)))) :=
  (final m c).trans (congrArg₂ rowsTimes (V_v58 m c) (V_v57 m c))

/-- THE RUN: every weakly fair execution of the idealized kernel terminates without a fault, with the final result at
    `kernelVal` of the arguments and the arguments unchanged. -/
theorem run : θ_run defs (onTc (τ := τ) (main (F := Ideal))) ⟨m, fun _ => 0, ρ⟩ fun r => ∀ c : Dev nD,
      r.2.mem ((c.tc : Thread nD τ).loc main_v60) = kernelVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v60 (Pipeline.mem_restRefs_of main_v60 (by decide) (by decide))).trans
        ((W_main_v60 m c).trans (congrArg (fun X => shapeCast S8000000x3 X shapeCasts_S62500x384_S8000000x3) (final_args m c))),
     ((h c).2 main_arg0 (Pipeline.mem_restRefs_of main_arg0 (by decide) (by decide))).trans (W_main_arg0 m c),
     ((h c).2 main_arg1 (Pipeline.mem_restRefs_of main_arg1 (by decide) (by decide))).trans (W_main_arg1 m c)⟩)
    (run_main m ρ)

/-- THE TWO RESULTS ARE ONE FUNCTION of the arguments. -/
theorem kernelVal_eq (x : FVec Ideal S8000000x3 .f32) (w : FVec Ideal S3x1 .f32) :
    kernelVal x w = Cert.ReferenceIdeal.Read.val_main_v50 (F := Ideal) x w := by
  funext i
  rw [Cert.ReferenceIdeal.Read.val_main_v50_apply]
  obtain ⟨n, b, rfl⟩ : ∃ (n : Fin 8000000) (b : Fin 3), i = ix2 n b := ⟨i 0, i 1, eq_ix2 i⟩
  have hn := n.isLt
  have hb := b.isLt
  have hr : (n.val * 3 + b.val) / 384 < 62500 := by omega
  have hj : (n.val * 3 + b.val) % 384 < 384 := Nat.mod_lt _ (by decide)
  unfold kernelVal
  rw [shapeCast_apply _ _ (ix2 n b) (ix2 (⟨(n.val * 3 + b.val) / 384, hr⟩ : Fin 62500) (⟨(n.val * 3 + b.val) % 384, hj⟩ : Fin 384))
    (by rw [Shape.rowMajor_val_two, Shape.rowMajor_val_two]
        show (n.val * 3 + b.val) / 384 * 384 + (n.val * 3 + b.val) % 384 = n.val * 3 + b.val
        omega)]
  unfold rowsTimes
  show ∑ k : Fin 384, shapeCast S62500x384 x shapeCasts_S8000000x3_S62500x384 (ix2 (⟨(n.val * 3 + b.val) / 384, hr⟩ : Fin 62500) k)
      * kron eyeI (Cert.ReferenceIdeal.Read.val_main_v49 (F := Ideal) w) (ix2 k (⟨(n.val * 3 + b.val) % 384, hj⟩ : Fin 384)) = _
  simp only [kron_apply, eyeI_apply]
  refine (Cert.BlockDiag.blockdiag_row
    (fun k => shapeCast S62500x384 x shapeCasts_S8000000x3_S62500x384 (ix2 (⟨(n.val * 3 + b.val) / 384, hr⟩ : Fin 62500) k))
    (fun a b' => Cert.ReferenceIdeal.Read.val_main_v49 (F := Ideal) w (ix2 a b'))
    (⟨(n.val * 3 + b.val) % 384, hj⟩ : Fin 384)).trans ?_
  refine Finset.sum_congr rfl fun a _ => ?_
  have ha := a.isLt
  congr 1
  · rw [shapeCast_apply _ _ _ (ix2 n a)
      (by rw [Shape.rowMajor_val_two, Shape.rowMajor_val_two]
          show n.val * 3 + a.val = (n.val * 3 + b.val) / 384 * 384 + (3 * ((n.val * 3 + b.val) % 384 / 3) + a.val)
          omega)]
    exact congrArg x (funext fun d => Fin.ext (by match d with | ⟨0, _⟩ => rfl | ⟨1, _⟩ => rfl))
  · exact congrArg (Cert.ReferenceIdeal.Read.val_main_v49 (F := Ideal) w)
      (funext fun d => Fin.ext (by
        match d with
        | ⟨0, _⟩ => rfl
        | ⟨1, _⟩ => show (n.val * 3 + b.val) % 384 % 3 = b.val; omega))

end Cert.KernelIdeal.Val

end
-- ==== Proof.lean ====
/- A rotation of eight million points by one 3 × 3 matrix built from three Euler angles.

   The kernel re-lays the points 128 to a row (rows of 384 numbers), multiplies each block of 4000 such rows by the
   384 × 384 block-diagonal matrix of 128 copies of the transposed rotation, and re-lays the product three to a row;
   the reference multiplies the points by the transposed rotation directly. Both build the rotation from the angles
   by the same operations in the same order.

   The frames: each program runs to the end, faults nowhere and leaves the points and the angles as they were. The
   62500 rows are not a multiple of 4000: the last of the sixteen blocks has 2500 rows inside the array, and what
   the product computes from the rest of its buffer is never written back. For the kernel as printed nothing is
   said of the product's values; for the idealized kernel they are followed exactly.

   The equivalence, over the extended reals: entry (n, b) of the kernel's result is a sum of 384 terms of which all
   but the three of column 3·(n mod 128) + b's own diagonal block carry the factor zero, and zero times any extended
   real is zero; the three that remain are points[n, a] · rotationᵀ[a, b], the reference's entry. The idealization
   rewrote nothing, so that the idealized kernel is the kernel's own text read at the extended reals needs no
   argument. -/
import proofs.«141301_j84353157693800_2_alg».proof.Defs
import proofs.«141301_j84353157693800_2_alg».proof.Proof.Gen.Kernel
import proofs.«141301_j84353157693800_2_alg».proof.Proof.Gen.KernelIdeal
import proofs.«141301_j84353157693800_2_alg».proof.Proof.Gen.ReferenceIdeal
import proofs.«141301_j84353157693800_2_alg».proof.Proof.Gen.Pre_finite_inputs
import proofs.«141301_j84353157693800_2_alg».proof.Proof.Gen.ReferenceIdeal.Run
import proofs.«141301_j84353157693800_2_alg».proof.Proof.Gen.ReferenceIdeal.Read
import proofs.«141301_j84353157693800_2_alg».proof.Proof.FrameBits
import proofs.«141301_j84353157693800_2_alg».proof.Proof.ValueIdeal
import Idealize.ShloMosaic.Adequacy
import Idealize.ShloMosaic.Init

noncomputable section

namespace Cert.Proof

open Idealize.ShloMosaic Idealize.ShloMosaic.TcCoe Idealize.SL.Sem

/-- The kernel as printed runs to the end and leaves both arguments unchanged. -/
theorem frame_kernel : Cert.frame_Kernel := fun m ρ _ => Cert.Kernel.Frm.frame m ρ

/-- So does the idealized kernel: its run with the result named says so of the arguments. -/
theorem frame_kernelIdeal : Cert.frame_KernelIdeal := fun m ρ _ =>
  (θ_run Cert.KernelIdeal.defs _ _).mono (fun _ h c => (h c).2) (Cert.KernelIdeal.Val.run m ρ)

/-- And the reference, a straight line of host operations. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the points and the angles both programs end with the same result: the kernel's
    rows-times-block-diagonal-matrix, re-laid, is the reference's matrix product entry by entry. -/
theorem algebraic : Cert.algebraic_KernelIdeal_ReferenceIdeal := by
  intro m ρ m' ρ' _ hagree
  refine ⟨fun c => Cert.KernelIdeal.Val.kernelVal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2]
  exact (Cert.KernelIdeal.Val.kernelVal_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
